-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  main_v3
-- ==== Kernel.lean ====
abbrev S8192 : Shape := ⟨1, ![8192]⟩
abbrev S8192x1 : Shape := ⟨2, ![8192, 1]⟩
abbrev S8192x4096 : Shape := ⟨2, ![8192, 4096]⟩
abbrev S1024x1 : Shape := ⟨2, ![1024, 1]⟩
abbrev S1024x4096 : Shape := ⟨2, ![1024, 4096]⟩
abbrev S1024x512 : Shape := ⟨2, ![1024, 512]⟩

abbrev nBuf : Space → Nat
  | .hbm => 3
  | .vmem => 4
  | .smem => 0
  | _ => 0

abbrev bufTy : (tb : Table) → Fin (tcTables nBuf tb) → BufTy
  | .hbm, ⟨0, _⟩ => ⟨S8192, .f32⟩
  | .hbm, ⟨1, _⟩ => ⟨S8192x1, .f32⟩
  | .hbm, ⟨2, _⟩ => ⟨S8192x4096, .f32⟩
  | .local _ .vmem, ⟨0, _⟩ => ⟨S1024x1, .f32⟩
  | .local _ .vmem, ⟨1, _⟩ => ⟨S1024x1, .f32⟩
  | .local _ .vmem, ⟨2, _⟩ => ⟨S1024x4096, .f32⟩
  | .local _ .vmem, ⟨3, _⟩ => ⟨S1024x4096, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c512_i32 : BitVec 32 := 512#32
  let v11 : BitVec 32 := Scalar.muli arg3 c512_i32
  v11
def k0_off1 (k0_t1 : Fin k0_t1_loop.trips) : Fin 2 → Nat :=
  let c0_4 : Index := 0#32
  let c0_i32 : BitVec 32 := 0#32
  let c1_i32 : BitVec 32 := 1#32
  let arg3 : BitVec 32 := Scf.iv c0_i32 c1_i32 k0_t1
  let c512_i32 : BitVec 32 := 512#32
  let v11 : BitVec 32 := Scalar.muli arg3 c512_i32
  let v12 : BitVec 32 := v11
  let v20 : Index := Scalar.indexCast v12
  ![0, v20.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8192_S8192x1 : S8192.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x512_d1_w32 : S1024x512.Iotas .tc 32 [1]
  broadcasts_S1024x1_S1024x512 : S1024x1.Broadcasts S1024x512
  natLt_1_32 : 1 < 32
  h_S1024x512 : 0 < S1024x512.numel
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1024x512.size a ≤ S1024x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S8192x4096.size a
  hwx0_1 : ∀ i : grid0.Coords, EltTy.bits .f32 = 32 ∨ (Rect.block (s := S8192x4096) S1024x4096.size (cc0_transform_1 i) (hinb0_1 i)).WholeWords (EltTy.packing .f32)

variable [Facts₀]

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192 : Shape := ⟨1, ![8192]⟩
abbrev S_ : Shape := ⟨0, ![]⟩
abbrev S4096 : Shape := ⟨1, ![4096]⟩
abbrev S1x4096 : Shape := ⟨2, ![1, 4096]⟩
abbrev S8192x1 : Shape := ⟨2, ![8192, 1]⟩
abbrev S8192x4096 : Shape := ⟨2, ![8192, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192, .f32⟩
  | .hbm, ⟨1, _⟩ => ⟨S_, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192, .i32⟩
  | .hbm, ⟨12, _⟩ => ⟨S4096, .i32⟩
  | .hbm, ⟨13, _⟩ => ⟨S1x4096, .i32⟩
  | .hbm, ⟨14, _⟩ => ⟨S8192x1, .i32⟩
  | .hbm, ⟨15, _⟩ => ⟨S8192x4096, .i32⟩
  | .hbm, ⟨16, _⟩ => ⟨S8192x4096, .i32⟩
  | .hbm, ⟨17, _⟩ => ⟨S8192x4096, .i1⟩
  | .hbm, ⟨18, _⟩ => ⟨S8192x4096, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S4096_S1x4096_1 : S4096.BroadcastsInDim S1x4096 (![1] : Fin 1 → Fin S1x4096.rank)
  bcast_S8192_S8192x1_0 : S8192.BroadcastsInDim S8192x1 (![0] : Fin 1 → Fin S8192x1.rank)
  bcast_S1x4096_S8192x4096_0_1 : S1x4096.BroadcastsInDim S8192x4096 (![0, 1] : Fin 2 → Fin S8192x4096.rank)
  bcast_S8192x1_S8192x4096_0_1 : S8192x1.BroadcastsInDim S8192x4096 (![0, 1] : Fin 2 → Fin S8192x4096.rank)

variable [Facts₀]

class Facts : Prop extends Facts₀ where

variable [Facts]
-- ==== Proof.MaskSpec.lean ====
/-
  The mask this certificate is about, as one function of the argument array, and the two small facts about machine
  integers that join the kernel's spelling of an entry to the reference's.

  Row `r` of the result, f32[8192, 4096], is a step: zero on the columns before a threshold and one from it on. The
  threshold is read off the row's argument `x r` — `x r · 8` rounded to the nearest integer (ties to even), divided by 8,
  times 2048, truncated toward zero to a 32-bit integer — and entry `(r, col)` is one exactly when `col`, as a signed
  32-bit integer, is at least the threshold. Both programs compute the threshold by the same four float operations of the
  same two literals (8 and 2048), so over the extended reals the two thresholds are one term and nothing about the
  argument's finiteness is used.

  What differs is integer bookkeeping. The kernel walks a row in eight chunks of 512 lanes and numbers a lane by adding
  the chunk's start, 512 · k, to the lane's number within the chunk, in 32-bit arithmetic: no wrap-around below 4096
  (`col_word`). And it turns the comparison's bit into a float by widening it to 32 bits and reading that signed, where
  the reference reads the bit itself unsigned: zero and one either way (`float_of_bit`).
-/
import Idealize.ShloMosaic.PureOps.Ideal
import Idealize.ShloMosaic.Lib.ValueIdx
import Idealize.ShloMosaic.Lib.Scf

noncomputable section

namespace Cert.MaskSpec

open Idealize.ShloMosaic

/-- The first column of a row's run of ones, from the row's argument `v`: `trunc (roundeven (v · 8) / 8 · 2048)` as a signed
    32-bit integer (the truncation saturating, as the float-to-integer conversion does). -/
def firstOne (v : Ideal .f32) : BitVec 32 :=
  FloatOps.fptosi 32 (FloatOps.mulf (FloatOps.divf (FloatOps.roundeven (FloatOps.mulf v (FloatOps.ofBits .f32 0x41000000#32)))
    (FloatOps.ofBits .f32 0x41000000#32)) (FloatOps.ofBits .f32 0x45000000#32))

/-- One entry of a row: one when the column, as a signed 32-bit integer, is at least the row's threshold, else zero. -/
def entry (v : Ideal .f32) (col : Nat) : Ideal .f32 :=
  FloatOps.uitofp .f32 (IntOp.cmpi .sge (BitVec.ofNat 32 col) (firstOne v))

/-- The whole result as a function of the argument array: entry `(r, col)` is row `r`'s step at `col`. -/
def mask (x : (⟨1, ![8192]⟩ : Shape).Idx → Ideal .f32) : (⟨2, ![8192, 4096]⟩ : Shape).Idx → Ideal .f32 :=
  fun i => entry (x (ValueIdx.ix1 (i 0))) (i 1).val

/-- Lane `l` of chunk `k` is column `512 · k + l`: the chunk's start `(0 + k · 1) · 512` added to the lane's number in 32-bit
    arithmetic is that column's word. -/
theorem col_word (k l : Nat) :
    IntOp.addi (BitVec.ofNat 32 l) (Scalar.muli (Scf.iv 0#32 1#32 k) 512#32) = BitVec.ofNat 32 (512 * k + l) := by
  show BitVec.ofNat 32 l + (0#32 + BitVec.ofNat 32 k * 1#32) * BitVec.ofNat 32 512 = _
  rw [BitVec.zero_add, BitVec.mul_one, ← BitVec.ofNat_mul, ← BitVec.ofNat_add]
  congr 1
  ring

/-- A comparison's bit widened to 32 bits and read as a signed integer is the bit read unsigned: both floats are 0 or 1. -/
theorem float_of_bit (b : BitVec 1) :
    FloatOps.sitofp (F := Ideal) .f32 (b.setWidth 32) = FloatOps.uitofp (F := Ideal) .f32 b := by
  have h : (b.setWidth 32).toInt = (b.toNat : ℤ) := by revert b; decide
  show (((b.setWidth 32).toInt : ℝ) : EReal) = ((b.toNat : ℝ) : EReal)
  rw [h]
  norm_cast

end Cert.MaskSpec

end
-- ==== Proof.ChunkEntry.lean ====
/-
  One chunk of the kernel's body, read at an index: lane `l` of row `p` in the chunk that trip `k` of the body's loop
  stores is the step of row `p`'s argument at column `512 · k + l`.
-/
import proofs.«175742_j67748814127432_2_alg».proof.Proof.Gen.KernelIdeal.Skeleton
import proofs.«175742_j67748814127432_2_alg».proof.Proof.MaskSpec
import Idealize.ShloMosaic.Lib.Pipeline.Value
import Idealize.ShloMosaic.Lib.ValueIdx

noncomputable section

namespace Cert.KernelIdeal.Chunk

open Cert.KernelIdeal Cert.KernelIdeal.Gen Idealize.ShloMosaic Idealize.ShloMosaic.ValueIdx

/-- The column of thresholds broadcast along the lanes reads, at `(p, l)`, row `p`'s threshold. -/
theorem lanes_apply (z : IVec S1024x1 32) (p : Fin 1024) (l : Fin 512) :
    broadcastTo S1024x512 z broadcasts_S1024x1_S1024x512 (ix2 p l) = z (ix2 p 0) :=
  broadcastTo_apply z broadcasts_S1024x1_S1024x512 (ix2 p l) (ix2 p 0) (fun a => by
    match a with
    | ⟨0, _⟩ => rfl
    | ⟨1, _⟩ => rfl)

theorem cmpi_apply {s : Shape} {w : Nat} (q : CmpIPredicate) (a b : IVec s w) (i : s.Idx) :
    cmpi q a b i = IntOp.cmpi q (a i) (b i) := rfl

theorem addi_apply {s : Shape} {w : Nat} (a b : IVec s w) (i : s.Idx) : addi a b i = IntOp.addi (a i) (b i) := rfl

/-- The payload of trip `k`'s store at lane `l` of row `p`: the comparison of column `512 · k + l` with the row's threshold,
    as a float. -/
theorem pay_apply (v0 : Vec Ideal S1024x1 .f32) (k : Fin k0_t1_loop.trips) (p : Fin 1024) (l : Fin 512) :
    k0_pay1 (F := Ideal) v0 k (ix2 p l) = MaskSpec.entry (v0 (ix2 p 0)) (512 * k.val + l.val) := by
  unfold k0_pay1
  dsimp only
  rw [shapeCast_self, sitofp_apply, extui_apply, cmpi_apply, addi_apply, broadcast_apply, iota_single_apply, lanes_apply,
    MaskSpec.float_of_bit]
  have hl : ((ix2 p l : S1024x512.Idx) 1).val = l.val := rfl
  rw [hl, MaskSpec.col_word]
  rfl

end Cert.KernelIdeal.Chunk

end
-- ==== Proof.ChunkBlock.lean ====
/-
  What the kernel's body leaves in the output's staging buffer at one grid point: the block of 1024 rows whose entry
  `(p, q)` is the step of row `p`'s argument at column `q`.

  The body stores the block in eight pieces, one per trip of its loop, piece `k` the 512 columns from `512 · k`. Each
  piece is the restriction of ONE function of the block index to its rectangle (`chunk_piece`, from the chunk read at an
  index), so the eight stores together, whatever their order, leave that function wherever a piece covers — and the
  pieces tile the block.
-/
import proofs.«175742_j67748814127432_2_alg».proof.Proof.Gen.KernelIdeal.Frame
import proofs.«175742_j67748814127432_2_alg».proof.Proof.ChunkEntry
import Idealize.ShloMosaic.Lib.Pipeline.Value
import Idealize.ShloMosaic.Lib.Tactic

noncomputable section

namespace Cert.KernelIdeal.Block

open Cert.KernelIdeal Cert.KernelIdeal.Gen Cert.KernelIdeal.Chunk
open Idealize.ShloMosaic Idealize.ShloMosaic.TcCoe Idealize.ShloMosaic.ValueIdx Idealize.ShloMosaic.Tactic Idealize.SL.Sem

/-- The block of the result over a block of 1024 arguments: entry `(p, q)` is row `p`'s step at column `q`. -/
def blockOf (x0 : Vec Ideal S1024x1 .f32) : Vec Ideal S1024x4096 .f32 :=
  fun y => MaskSpec.entry (x0 (ix2 (⟨(y 0).val, idx2_lt0 y⟩ : Fin 1024) (0 : Fin 1))) (y 1).val

theorem hz : (![0, 0] : Fin 2 → Nat) = fun _ => 0 := funext fun a => by fin_cases a <;> rfl

/-- One trip of the loop stores one piece: its chunk's payload, at the chunk's rectangle. -/
theorem trip_piece (𝒱 : Variants) (c : Dev nD) (bd : Option 𝒱.V) (i : grid0.Coords) (a1 : Memref sig .tc .vmem S1024x1 .f32) (h1 : a1.IsWhole)
    (a2 : Memref sig .tc .vmem S1024x4096 .f32) (h2 : a2.IsWhole) (v0 : Vec Ideal S1024x1 .f32) (k : Fin k0_t1_loop.trips) :
    tripL_k0_t1 (F := Ideal) 𝒱 c bd i a1 h1 a2 h2 v0 k
      = [⟨Rect.unit (s := S1024x4096) (k0_off1 k) S1024x512.size (k0_off1_inb k), k0_pay1 v0 k⟩] := by
  unfold tripL_k0_t1 trip_k0_t1
  rfl

/-- Chunk `k`'s payload is the block function restricted to the chunk's rectangle: lane `l` of row `p` sits at `(p, 512 · k + l)`. -/
theorem chunk_piece (v0 : Vec Ideal S1024x1 .f32) (k : Fin k0_t1_loop.trips)
    (x : (Rect.unit (s := S1024x4096) (k0_off1 k) S1024x512.size (k0_off1_inb k)).shape.Idx) :
    k0_pay1 (F := Ideal) v0 k x = blockOf v0 ((Rect.unit (s := S1024x4096) (k0_off1 k) S1024x512.size (k0_off1_inb k)).emb x) := by
  obtain ⟨p, l, rfl⟩ : ∃ (p : Fin 1024) (l : Fin 512), x = ix2 p l := ⟨x 0, x 1, eq_ix2 x⟩
  have e0 : (((Rect.unit (s := S1024x4096) (k0_off1 k) S1024x512.size (k0_off1_inb k)).emb (ix2 p l)) 0).val = p.val := by
    rw [Rect.emb_apply]
    show k0_off1 k 0 + 1 * p.val = p.val
    rw [k0_off1_eq]
    show 0 + 1 * p.val = p.val
    omega
  have e1 : (((Rect.unit (s := S1024x4096) (k0_off1 k) S1024x512.size (k0_off1_inb k)).emb (ix2 p l)) 1).val = 512 * k.val + l.val := by
    rw [Rect.emb_apply]
    show k0_off1 k 1 + 1 * l.val = 512 * k.val + l.val
    rw [k0_off1_eq]
    show 512 * k.val + 1 * l.val = 512 * k.val + l.val
    omega
  rw [pay_apply]
  unfold blockOf
  exact congrArg₂ MaskSpec.entry (congrArg v0 (congrArg (fun q : Fin 1024 => ix2 q (0 : Fin 1)) (Fin.ext e0.symm))) e1.symm

/-- Every piece of the trips before `n` is the block function on its rectangle: by induction on the trips. -/
theorem pieces_agree (𝒱 : Variants) (c : Dev nD) (bd : Option 𝒱.V) (i : grid0.Coords) (a1 : Memref sig .tc .vmem S1024x1 .f32) (h1 : a1.IsWhole)
    (a2 : Memref sig .tc .vmem S1024x4096 .f32) (h2 : a2.IsWhole) (v0 : Vec Ideal S1024x1 .f32) :
    ∀ n, n ≤ k0_t1_loop.trips → ∀ q ∈ pb_k0_t1 (F := Ideal) 𝒱 c bd i a1 h1 a2 h2 v0 n,
      ∀ x : q.1.shape.Idx, q.2 x = blockOf v0 (q.1.emb x)
  | 0, _ => fun q hq => absurd hq List.not_mem_nil
  | n + 1, hn => by
    intro q hq
    have hlt : n < k0_t1_loop.trips := Nat.lt_of_succ_le hn
    have e : pb_k0_t1 (F := Ideal) 𝒱 c bd i a1 h1 a2 h2 v0 (n + 1)
        = tripL_k0_t1 (F := Ideal) 𝒱 c bd i a1 h1 a2 h2 v0 ⟨n, hlt⟩ ++ pb_k0_t1 (F := Ideal) 𝒱 c bd i a1 h1 a2 h2 v0 n :=
      pb_k0_t1_succ (F := Ideal) 𝒱 c bd i a1 h1 a2 h2 v0 ⟨n, hlt⟩
    rw [e, trip_piece, List.mem_append, List.mem_singleton] at hq
    rcases hq with rfl | hq
    · exact chunk_piece v0 ⟨n, hlt⟩
    · exact pieces_agree 𝒱 c bd i a1 h1 a2 h2 v0 n (Nat.le_of_succ_le hn) q hq

/-- The body's run leaves, in the output's staging buffer, the block function of the input block. -/
theorem out_block (c : Dev nD) (i : grid0.Coords) (a1 : Memref sig .tc .vmem S1024x1 .f32) (h1 : a1.IsWhole)
    (a2 : Memref sig .tc .vmem S1024x4096 .f32) (h2 : a2.IsWhole) (x0 : Vec Ideal S1024x1 .f32) :
    out0_A_1 (F := Ideal) c i a1 h1 a2 h2 x0 = blockOf x0 := by
  have hrun : (kernelRun0_A (F := Ideal) c i a1 h1 a2 h2 x0).1
      = pb_k0_t1 (F := Ideal) Variants.none c none i a1 h1 a2 h2 x0 k0_t1_loop.trips := by
    unfold kernelRun0_A
    dsimp only
    sl_unfold_words
    simp only [View.readAt_eq_ld, h1.read_unread, View.ld_unit_zero (S := S1024x1) hz]
  unfold out0_A_1
  rw [View.read_writes_eq_canon _ _ _ (cover0_A_1 c i a1 h1 a2 h2 x0)]
  funext y
  refine View.canon_apply_of_pieces (blockOf x0) _ ?_ y (cover0_A_1 c i a1 h1 a2 h2 x0 y)
  rw [hrun]
  exact pieces_agree Variants.none c none i a1 h1 a2 h2 x0 _ (le_refl _)

end Cert.KernelIdeal.Block

end
-- ==== Proof.MaskArray.lean ====
/-
  From blocks to the array: after the kernel's run the result array holds the mask of the argument array.

  The launch walks the 8192 rows in eight blocks of 1024. At point `t` the input window holds rows `1024 · t` to
  `1024 · t + 1023` of the argument — seen as a column [8192, 1], which is the argument itself in row-major order — and
  the body leaves the block function of those rows, which point `t` writes back to rows `1024 · t …` of the result,
  all 4096 columns. Entry `(p, q)` of that block is the step of argument `1024 · t + p` at column `q`: the mask's entry
  at the array index under the block. Row `r` of the result lies in the block of point `r / 1024`, so the blocks cover
  the array and the array is the mask.
-/
import proofs.«175742_j67748814127432_2_alg».proof.Proof.Gen.KernelIdeal.Value
import proofs.«175742_j67748814127432_2_alg».proof.Proof.ChunkBlock
import Idealize.ShloMosaic.Lib.Pipeline.Value
import Idealize.ShloMosaic.Lib.StableHlo.Run

noncomputable section

namespace Cert.KernelIdeal.Whole

open Cert.KernelIdeal Cert.KernelIdeal.Gen Cert.KernelIdeal.Block
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The input window's array, as the region finds it, is the argument recast as a column. -/
theorem column_eq (c : Dev nD) :
    (V m c main_v0 : S8192x1.Idx → Ideal .f32)
      = shapeCast S8192x1 (m ((c : Thread nD τ).loc main_arg0)) shapeCasts_S8192_S8192x1 := by
  dsimp only [Gen.V, Gen.hostOps0]
  after_results
  rfl

/-- Row `r` of the column is entry `r` of the argument. -/
theorem column_apply (c : Dev nD) (r : Fin 8192) :
    V m c main_v0 (ix2 r (0 : Fin 1)) = m ((c : Thread nD τ).loc main_arg0) (ix1 r) := by
  rw [column_eq]
  exact shapeCast_apply _ _ (ix2 r (0 : Fin 1)) (ix1 r) (by
    rw [Shape.rowMajor_val_one, Shape.rowMajor_val_two]
    show r.val = r.val * 1 + 0
    omega)

/-- The printed index maps over the grid: point `t` takes block `t` of the rows, of both windows, and block 0 of the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `p` of the input block at point `t` is entry `1024 · t + p` of the argument. -/
theorem iblk_apply (c : Dev nD) (t : Fin cfg0.N) (p : Fin 1024) (hr : 1024 * t.val + p.val < 8192) :
    iblk m c 0 t (ix2 p (0 : Fin 1)) = m ((c : Thread nD τ).loc main_arg0) (ix1 (⟨1024 * t.val + p.val, hr⟩ : Fin 8192)) := by
  obtain ⟨e0, e1, -, -⟩ := idx_facts t
  have he : ((cfg0.win 0).blk t).view.emb (ix2 p (0 : Fin 1)) = ix2 (⟨1024 * t.val + p.val, hr⟩ : Fin 8192) (0 : Fin 1) := by
    funext a
    apply Fin.ext
    match a with
    | ⟨0, _⟩ => show win0_0.index t (0 : Fin 2) * 1024 + 1 * p.val = 1024 * t.val + p.val; omega
    | ⟨1, _⟩ => show win0_0.index t (1 : Fin 2) * 1 + 1 * 0 = 0; omega
  show V m c main_v0 (((cfg0.win 0).blk t).view.emb (ix2 p (0 : Fin 1))) = _
  rw [he, column_apply]

/-- What point `t` writes back is block `t` of the mask of the argument array. -/
theorem flushed_eq (c : Dev nD) (t : Fin cfg0.N) :
    (dats m 0 c).flushed 1 t
      = ((cfg0.win 1).blk t).view.read (Elt Ideal) (MaskSpec.mask (m ((c : Thread nD τ).loc main_arg0))) := by
  rw [Cert.KernelIdeal.Value.flushed1_A, out_block]
  obtain ⟨-, -, e2, e3⟩ := idx_facts t
  have hN : t.val < 8 := Nat.lt_of_lt_of_eq t.isLt (N_0 : cfg0.N = 8)
  funext j
  obtain ⟨p, q, rfl⟩ : ∃ (p : Fin 1024) (q : Fin 4096), j = ix2 p q := ⟨j 0, j 1, eq_ix2 j⟩
  have hr : 1024 * t.val + p.val < 8192 := by have := p.isLt; omega
  show MaskSpec.entry (iblk m c 0 t (ix2 p (0 : Fin 1))) q.val
    = MaskSpec.mask (m ((c : Thread nD τ).loc main_arg0)) (((cfg0.win 1).blk t).view.emb (ix2 p q))
  rw [iblk_apply m c t p hr]
  unfold MaskSpec.mask
  have r0 : (⟨1024 * t.val + p.val, hr⟩ : Fin 8192) = (((cfg0.win 1).blk t).view.emb (ix2 p q)) 0 := by
    apply Fin.ext
    show 1024 * t.val + p.val = win0_1.index t (0 : Fin 2) * 1024 + 1 * p.val
    omega
  have r1 : q.val = ((((cfg0.win 1).blk t).view.emb (ix2 p q)) 1).val := by
    show q.val = win0_1.index t (1 : Fin 2) * 4096 + 1 * q.val
    omega
  exact congrArg₂ MaskSpec.entry (congrArg (m ((c : Thread nD τ).loc main_arg0)) (congrArg (fun r : Fin 8192 => ix1 r) r0)) r1

/-- An index of the result is in point `t`'s block iff each coordinate is in the block's range on its axis. -/
theorem mem_blk (t : Fin cfg0.N) (i : S8192x4096.Idx) :
    i ∈ ((cfg0.win 1).blk t).view.set ↔ ∀ a : Fin 2, win0_1.index t a * S1024x4096.size a ≤ (i a).val
      ∧ (i a).val < win0_1.index t a * S1024x4096.size a + S1024x4096.size a := by
  show i ∈ ((View.whole main_v1).slice (win0_1.rect t)).set ↔ _
  rw [View.set_slice_whole, Rect.mem_set_unit]
  exact Iff.rfl

/-- Every index of the result is in some point's block: row `r` in that of point `r / 1024`. -/
theorem cover (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  have hN : cfg0.N = 8 := N_0
  have ht : (i 0).val / 1024 < cfg0.N := by rw [hN]; omega
  refine ⟨⟨(i 0).val / 1024, ht⟩, flush0_1 _, ?_⟩
  obtain ⟨-, -, e2, e3⟩ := idx_facts ⟨(i 0).val / 1024, ht⟩
  rw [mem_blk]
  intro a
  match a with
  | ⟨0, _⟩ =>
    show win0_1.index ⟨(i 0).val / 1024, ht⟩ (0 : Fin 2) * 1024 ≤ (i 0).val
      ∧ (i 0).val < win0_1.index ⟨(i 0).val / 1024, ht⟩ (0 : Fin 2) * 1024 + 1024
    rw [e2]
    show (i 0).val / 1024 * 1024 ≤ (i 0).val ∧ (i 0).val < (i 0).val / 1024 * 1024 + 1024
    omega
  | ⟨1, _⟩ =>
    show win0_1.index ⟨(i 0).val / 1024, ht⟩ (1 : Fin 2) * 4096 ≤ (i 1).val
      ∧ (i 1).val < win0_1.index ⟨(i 0).val / 1024, ht⟩ (1 : Fin 2) * 4096 + 4096
    rw [e3]
    omega

/-- The result array after the run is the mask of the argument array. -/
theorem final (c : Dev nD) :
    (dats m 0 c).arrAt 1 cfg0.N = MaskSpec.mask (m ((c : Thread nD τ).loc main_arg0)) :=
  (dats m 0 c).arrAt_eq_of_cover 1 (MaskSpec.mask (m ((c : Thread nD τ).loc main_arg0))) (fun t _ => flushed_eq m c t) cover

/-- The kernel's run, read: the result array at the mask of the argument array, the argument unchanged. -/
theorem run : θ_run defs (onTc (τ := τ) (main (F := Ideal))) ⟨m, fun _ => 0, ρ⟩ fun r => ∀ c : Dev nD,
      r.2.mem ((c : Thread nD τ).loc main_v1) = MaskSpec.mask (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Whole

end
-- ==== Proof.RefMask.lean ====
/-
  The reference computes the mask: its last stage, read at an index `(r, col)`, compares the column's number — an iota
  along the columns, broadcast down the rows — with row `r`'s threshold — the truncation of `roundeven (x r · 8) / 8 · 2048`,
  broadcast along the columns — and converts the bit to a float. The host's quotient and its rounding to the nearest
  even integer are, over the extended reals, the functions the kernel's `divf` and `roundeven` are.
-/
import proofs.«175742_j67748814127432_2_alg».proof.Proof.Gen.ReferenceIdeal.Read
import proofs.«175742_j67748814127432_2_alg».proof.Proof.MaskSpec
import Idealize.ShloMosaic.Lib.ValueIdx

noncomputable section

namespace Cert.ReferenceIdeal.RefValue

open Cert.ReferenceIdeal Cert.ReferenceIdeal.Read Idealize.ShloMosaic Idealize.ShloMosaic.ValueIdx

/-- The reference's result, as a function of its argument array, is the mask. -/
theorem ref_is_mask (x0 : (⟨S8192, .f32⟩ : BufTy).Contents (Elt Ideal)) :
    val_main_v14 (F := Ideal) x0 = MaskSpec.mask x0 := by
  funext i
  have hc : ((idx_main_v9 (idx_main_v11 i)) 0).val = (i 1).val := rfl
  have hr : idx_main_v10 (idx_main_v12 i) = ix1 (i 0) := funext fun a => Fin.ext (by
    match a with
    | ⟨0, _⟩ => rfl)
  rw [val_main_v14_apply, val_main_v13_apply, val_main_v11_apply, val_main_v9_apply, val_main_v8_apply, val_main_v12_apply,
    val_main_v10_apply, val_main_v7_apply, val_main_v6_apply, val_main_v4_apply, val_main_v2_apply, val_main_v1_apply,
    val_main_v0_apply, val_main_cst_apply, val_main_v3_apply, val_main_cst_0_apply, val_main_v5_apply, val_main_cst_1_apply,
    hc, hr]
  unfold MaskSpec.mask MaskSpec.entry MaskSpec.firstOne
  simp only [Ideal.hostDivf_def, Ideal.divf_def, Ideal.hostUnary_roundeven_def, Ideal.roundeven_def]
  rfl

end Cert.ReferenceIdeal.RefValue

end
-- ==== Proof.lean ====
/-
  A step mask per row, computed tile by tile, against the same mask computed by broadcasting.

  The argument is `x : f32[8192]`; the result is `f32[8192, 4096]`. Row `r` of the result is zero on the columns before
  a threshold and one from it on; the threshold is `trunc (roundeven (x r · 8) / 8 · 2048)` as a signed 32-bit integer, and
  entry `(r, col)` is one exactly when `col ≥ threshold` as signed 32-bit integers (Proof/MaskSpec.lean: `mask`).

  The kernel takes the rows in eight blocks of 1024 (its argument recast as a column [8192, 1]); for a block it computes
  the 1024 thresholds once and then fills the block's 4096 columns in eight chunks of 512, comparing each chunk's column
  numbers — lane number plus chunk start, in 32-bit arithmetic — with the thresholds broadcast along the lanes
  (Proof/ChunkEntry.lean: one chunk at an index; Proof/ChunkBlock.lean: the eight chunks are restrictions of one function
  of the block index, so together they leave it; Proof/MaskArray.lean: the eight blocks cover the array, and the block
  under an array index holds the mask's entry there). The reference computes the thresholds for all rows, broadcasts them
  along the columns, broadcasts an iota of the columns down the rows, and compares (Proof/RefMask.lean).

  Over the extended reals the two thresholds are the same term of `x r`: the same product with 8, the same rounding to the
  nearest even integer, the same quotient by 8 (the host's quotient is the kernel's), the same product with 2048, the same
  truncation. So the two results are equal entry by entry for every argument, finite or not, and the precondition is not
  used. The three frames are the generated ones (the reference's from its generated run); the idealization rewrote nothing,
  so `preserves` is trivial.
-/
import proofs.«175742_j67748814127432_2_alg».proof.Defs
import proofs.«175742_j67748814127432_2_alg».proof.Proof.Gen.Kernel
import proofs.«175742_j67748814127432_2_alg».proof.Proof.Gen.Kernel.Skeleton
import proofs.«175742_j67748814127432_2_alg».proof.Proof.Gen.Kernel.Loops
import proofs.«175742_j67748814127432_2_alg».proof.Proof.Gen.Kernel.Launch
import proofs.«175742_j67748814127432_2_alg».proof.Proof.Gen.Kernel.Points
import proofs.«175742_j67748814127432_2_alg».proof.Proof.Gen.Kernel.Frame
import proofs.«175742_j67748814127432_2_alg».proof.Proof.Gen.KernelIdeal
import proofs.«175742_j67748814127432_2_alg».proof.Proof.Gen.KernelIdeal.Skeleton
import proofs.«175742_j67748814127432_2_alg».proof.Proof.Gen.KernelIdeal.Loops
import proofs.«175742_j67748814127432_2_alg».proof.Proof.Gen.KernelIdeal.Launch
import proofs.«175742_j67748814127432_2_alg».proof.Proof.Gen.KernelIdeal.Points
import proofs.«175742_j67748814127432_2_alg».proof.Proof.Gen.KernelIdeal.Frame
import proofs.«175742_j67748814127432_2_alg».proof.Proof.Gen.KernelIdeal.Value
import proofs.«175742_j67748814127432_2_alg».proof.Proof.Gen.ReferenceIdeal
import proofs.«175742_j67748814127432_2_alg».proof.Proof.Gen.ReferenceIdeal.Run
import proofs.«175742_j67748814127432_2_alg».proof.Proof.Gen.ReferenceIdeal.Read
import proofs.«175742_j67748814127432_2_alg».proof.Proof.Gen.Pre_finite_inputs
import proofs.«175742_j67748814127432_2_alg».proof.Proof.MaskArray
import proofs.«175742_j67748814127432_2_alg».proof.Proof.RefMask
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the mask of their argument arrays, and the argument arrays agree. -/
theorem algebraic : Cert.algebraic_KernelIdeal_ReferenceIdeal := by
  intro m ρ m' ρ' _ hagree
  refine ⟨fun c => MaskSpec.mask (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.ReferenceIdeal.RefValue.ref_is_mask, hagree c]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
